-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S64x2048x64_S4x16x2048x64 : S64x2048x64.ShapeCasts S4x16x2048x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048, .f32⟩
  | .hbm, ⟨6, _⟩ => ⟨S_, .f32⟩
  | .hbm, ⟨7, _⟩ => ⟨S4x16x2048, .f32⟩
  | .hbm, ⟨8, _⟩ => ⟨S4x16x2048, .f32⟩
  | .hbm, ⟨9, _⟩ => ⟨S4x16x2048x1, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttentionSpec.lean ====
/-
  The mathematics of this certificate, with no program in sight.

  Attention without scaling or mask, one query row at a time. For a query row `qr : Fin D → EReal`, keys
  `K : Fin N → Fin D → EReal` and one column of the values `Vc : Fin N → EReal`:
    the scores        s j = ∑ e, qr e * K j e,
    their maximum     M   = max over j of s j, folded from −∞,
    the weights       p j = exp (s j − M) / ∑ j', exp (s j' − M),
    the result        ∑ j, p j * Vc j.
  Both programs compute exactly this expression of the extended reals, operation by operation; they differ
  only in how the four-axis arrays are laid out when the rows are taken (the kernel merges batch and head
  into one axis of 64 = 4 · 16 and works on tiles of 512 query rows), which changes no element.
  `attn3` is the expression over arrays [64, 2048, 64], `attn4` over arrays [4, 16, 2048, 64].
-/
import Idealize.ShloMosaic.PureOps.Ideal
import Idealize.ShloMosaic.Lib.ValueIdx

noncomputable section

open scoped BigOperators

namespace Cert.Attention

open Idealize.ShloMosaic Idealize.ShloMosaic.ValueIdx

/-- The word both programs write for −∞ (the start of a row's maximum). It is never evaluated except to see
    that `max` against it changes nothing. -/
abbrev negInf : EReal := Ideal.ofBits .f32 0xFF800000#32

theorem negInf_eq_bot : negInf = ⊥ := by simp [negInf, Ideal.ofBits, Ideal.ieee]

/-- `max` with −∞ on the left is the identity. -/
theorem max_negInf (x : EReal) : max negInf x = x := by rw [negInf_eq_bot]; exact max_eq_right bot_le

/-- A row's maximum: the fold of `max` from −∞ over the row. -/
def rowMax {N : Nat} (s : Fin N → EReal) : EReal := (Finset.univ : Finset (Fin N)).fold max negInf s

/-- The softmax weight of entry `j` of a row of scores, written as both programs compute it: the maximum is
    subtracted before the exponential, and the quotient is the ideal instance's division. -/
def softmaxRow {N : Nat} (s : Fin N → EReal) (j : Fin N) : EReal :=
  Ideal.div (Ideal.exp (s j - rowMax s)) (∑ j' : Fin N, Ideal.exp (s j' - rowMax s))

/-- One entry of the attention output: the softmax weights of the row's scores against one column of the values. -/
def attnRow {N D : Nat} (qr : Fin D → EReal) (K : Fin N → Fin D → EReal) (Vc : Fin N → EReal) : EReal :=
  ∑ j : Fin N, softmaxRow (fun j' => ∑ e : Fin D, qr e * K j' e) j * Vc j

/-- Attention over arrays [64, 2048, 64] (batch and head merged): entry (g, i, d). -/
def attn3 (q k v : (⟨3, ![64, 2048, 64]⟩ : Shape).Idx → EReal) : (⟨3, ![64, 2048, 64]⟩ : Shape).Idx → EReal :=
  fun y => attnRow (fun e : Fin 64 => q (ix3 (y 0) (y 1) e)) (fun (j : Fin 2048) (e : Fin 64) => k (ix3 (y 0) j e))
    (fun j : Fin 2048 => v (ix3 (y 0) j (y 2)))

/-- Attention over arrays [4, 16, 2048, 64]: entry (b, h, i, d). -/
def attn4 (q k v : (⟨4, ![4, 16, 2048, 64]⟩ : Shape).Idx → EReal) : (⟨4, ![4, 16, 2048, 64]⟩ : Shape).Idx → EReal :=
  fun y => attnRow (fun e : Fin 64 => q (ix4 (y 0) (y 1) (y 2) e)) (fun (j : Fin 2048) (e : Fin 64) => k (ix4 (y 0) (y 1) j e))
    (fun j : Fin 2048 => v (ix4 (y 0) (y 1) j (y 3)))

end Cert.Attention

end
-- ==== Proof.BodyValue.lean ====
/-
  The kernel body's operations that are not pointwise, each read at an index given by coordinates, and then the
  whole body: what one grid point stores at row r, column d of its [1, 512, 64] block is `attnRow` of query row r
  of the loaded query block, all 2048 rows of the loaded key block, and column d of the loaded value block.

  The body transposes the keys and multiplies (into a zero accumulator), takes each row's maximum from −∞, subtracts
  it through a column broadcast, exponentiates, sums each row from 0, divides through a second column broadcast, and
  multiplies by the values (into a zero accumulator). The changes of float format in between are the identity here.
-/
import proofs.«119954_j38783554683221_1_alg».proof.Proof.Gen.KernelIdeal.Skeleton
import proofs.«119954_j38783554683221_1_alg».proof.Proof.AttentionSpec
import Idealize.ShloMosaic.PureOps.Ideal.Laws
import Idealize.ShloMosaic.Lib.Pipeline.Value
import Idealize.ShloMosaic.Lib.ValueLayout

noncomputable section

open scoped BigOperators

namespace Cert.KernelIdeal.BodyValue

open Cert.KernelIdeal Cert.KernelIdeal.Gen Idealize.ShloMosaic Idealize.ShloMosaic.ValueIdx Cert.Attention

/-- The operand indices of the qk product off the contracted axis: the left operand's row is the result's row,
    the right operand's column the result's column. -/
theorem qk_lhs_row (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem qk_rhs_col (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- The operand indices of the pv product off the contracted axis: the left operand's row is the result's row,
    the right operand's column the result's column. -/
theorem pv_lhs_row (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_rhs_col (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The first product: queries [512, 64] times transposed keys [64, 2048], into zero. Entry (r, j) is the sum over
    the 64 features of the products. -/
theorem qk_apply (a : FVec Ideal S512x64 .bf16) (bT : FVec Ideal S64x2048 .bf16) (r : Fin 512) (j : Fin 2048) :
    matmul dot_S512x64_S64x2048_S512x2048_1_0_0_1_n_n none a bT (constant S512x2048 .f32 0x00000000#32) (ix2 r j)
      = ∑ e : Fin 64, a (ix2 r e) * bT (ix2 e j) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 r j) ((contrEquiv1 dot_S512x64_S64x2048_S512x2048_1_0_0_1_n_n 64 rfl rfl).symm k) = ix2 r k :=
    funext fun ax => Fin.ext (by
      match ax with
      | ⟨0, _⟩ => exact qk_lhs_row _ _
      | ⟨1, _⟩ => exact (dot_S512x64_S64x2048_S512x2048_1_0_0_1_n_n.lhsIdx_val_of_single rfl _ _).trans hk)
  have er : dot_S512x64_S64x2048_S512x2048_1_0_0_1_n_n.rhsIdx (ix2 r j) ((contrEquiv1 dot_S512x64_S64x2048_S512x2048_1_0_0_1_n_n 64 rfl rfl).symm k) = ix2 k j :=
    funext fun ax => Fin.ext (by
      match ax with
      | ⟨0, _⟩ => exact (dot_S512x64_S64x2048_S512x2048_1_0_0_1_n_n.rhsIdx_val_of_single rfl _ _).trans hk
      | ⟨1, _⟩ => exact qk_rhs_col _ _)
  rw [el, er]

/-- The second product: weights [512, 2048] times values [2048, 64], into zero. Entry (r, d) is the sum over the
    2048 keys of the products. -/
theorem pv_apply (p : FVec Ideal S512x2048 .bf16) (v : FVec Ideal S2048x64 .bf16) (r : Fin 512) (d : Fin 64) :
    matmul dot_S512x2048_S2048x64_S512x64_1_0_0_1_n_n none p v (constant S512x64 .f32 0x00000000#32) (ix2 r d)
      = ∑ j : Fin 2048, p (ix2 r j) * v (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun ax => Fin.ext (by
      match ax with
      | ⟨0, _⟩ => exact pv_lhs_row _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun ax => Fin.ext (by
      match ax with
      | ⟨0, _⟩ => exact (dot_S512x2048_S2048x64_S512x64_1_0_0_1_n_n.rhsIdx_val_of_single rfl _ _).trans hk
      | ⟨1, _⟩ => exact pv_rhs_col _ _)
  rw [el, er]

/-- A row's maximum: the reduction by `max` over the 2048 columns, from −∞. -/
theorem rowmax_apply (s : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r) = rowMax (fun j : Fin 2048 => s (ix2 r j)) := by
  rw [Ideal.multiReduction_maximumf_single]
  have hl : (s ∘ h.lift (ix1 r)) = fun j : Fin 2048 => s (ix2 r j) :=
    funext fun k => congrArg s (funext fun a => Fin.ext (by match a with | ⟨0, _⟩ => rfl | ⟨1, _⟩ => rfl))
  rw [hl]
  rfl

/-- A row's sum: the reduction by `+` over the 2048 columns (from the word for 0, which the sum does not see). -/
theorem rowsum_apply (p : FVec Ideal S512x2048 .f32) (h : S512x2048.Reduces [1] S512) (hφ : FKind.Formats .f32)
    (hacc : (0x00000000#32 : BitVec 32) = FKind.add.neutral .f32 hφ) (r : Fin 512) :
    multiReduction .add [1] S512 p 0x00000000#32 h hφ hacc (ix1 r) = ∑ j : Fin 2048, p (ix2 r j) := by
  rw [Ideal.multiReduction_add_single]
  refine Finset.sum_congr rfl fun k _ => ?_
  exact congrArg p (funext fun a => Fin.ext (by match a with | ⟨0, _⟩ => rfl | ⟨1, _⟩ => rfl))

/-- A per-row value [512] made a column [512, 1] and broadcast over the 2048 columns reads, at (r, j), the row's value. -/
theorem colbcast_apply (v : FVec Ideal S512 .f32) (h1 : S512.ShapeCasts S512x1) (h2 : S512x1.Broadcasts S512x2048)
    (r : Fin 512) (j : Fin 2048) :
    broadcastTo S512x2048 (shapeCast S512x1 v h1) h2 (ix2 r j) = v (ix1 r) := by
  refine (broadcastTo_apply _ h2 (ix2 r j) (ix2 r (0 : Fin 1)) (fun a => by
    match a with
    | ⟨0, _⟩ => show r.val = if (512 : Nat) = 1 then 0 else r.val; rw [if_neg (by decide)]
    | ⟨1, _⟩ => show 0 = if (1 : Nat) = 1 then 0 else j.val; rw [if_pos rfl])).trans ?_
  exact shapeCast_apply v h1 _ _ (by
    rw [Shape.rowMajor_val_one, Shape.rowMajor_val_two]
    show r.val = r.val * 1 + 0
    omega)

/-- The scores the body forms from its loaded query block and key block: entry (r, j) is the contraction of query
    row r with key row j (the block's leading unit axis dropped, the keys transposed, the formats changed: none of
    which touches a value). -/
theorem scores_apply (x0 : FVec Ideal S1x512x64 .f32) (x1 : FVec Ideal S1x2048x64 .f32)
    (h0 : S1x512x64.ShapeCasts S512x64) (h1 : S1x2048x64.ShapeCasts S2048x64) (hb : FTy.bits .bf16 < FTy.bits .f32)
    (ht : S2048x64.Transposes [1, 0] S64x2048) (r : Fin 512) (j : Fin 2048) :
    matmul (F := Ideal) dot_S512x64_S64x2048_S512x2048_1_0_0_1_n_n none (truncf (F := Ideal) .bf16 (shapeCast S512x64 x0 h0) hb)
        (transpose S64x2048 [1, 0] (truncf (F := Ideal) .bf16 (shapeCast S2048x64 x1 h1) hb) ht) (constant S512x2048 .f32 0x00000000#32) (ix2 r j)
      = ∑ e : Fin 64, x0 (ix3 (0 : Fin 1) r e) * x1 (ix3 (0 : Fin 1) j e) := by
  rw [qk_apply]
  refine Finset.sum_congr rfl fun e _ => ?_
  rw [truncf_apply, shapeCast_1ab_ab_apply, transpose_ix2_apply, truncf_apply, shapeCast_1ab_ab_apply]

/-- The body's softmax of a score matrix [512, 2048]: entry (r, j) is the softmax weight of entry j of row r. -/
theorem softmax_apply (s : FVec Ideal S512x2048 .f32) (h : S512x2048.Reduces [1] S512) (hφ hφ' : FKind.Formats .f32)
    (hmax : (0xFF800000#32 : BitVec 32) = FKind.maximumf.neutral .f32 hφ)
    (hadd : (0x00000000#32 : BitVec 32) = FKind.add.neutral .f32 hφ')
    (h1 : S512.ShapeCasts S512x1) (h2 : S512x1.Broadcasts S512x2048) (r : Fin 512) (j : Fin 2048) :
    divf (exp (subf s (broadcastTo S512x2048 (shapeCast S512x1 (multiReduction .maximumf [1] S512 s 0xFF800000#32 h hφ hmax) h1) h2)))
        (broadcastTo S512x2048 (shapeCast S512x1 (multiReduction .add [1] S512
          (exp (subf s (broadcastTo S512x2048 (shapeCast S512x1 (multiReduction .maximumf [1] S512 s 0xFF800000#32 h hφ hmax) h1) h2)))
          0x00000000#32 h hφ' hadd) h1) h2) (ix2 r j)
      = softmaxRow (fun j' : Fin 2048 => s (ix2 r j')) j := by
  have hE : ∀ j' : Fin 2048,
      exp (subf s (broadcastTo S512x2048 (shapeCast S512x1 (multiReduction .maximumf [1] S512 s 0xFF800000#32 h hφ hmax) h1) h2)) (ix2 r j')
        = Ideal.exp (s (ix2 r j') - rowMax (fun j'' : Fin 2048 => s (ix2 r j''))) := fun j' => by
    show Ideal.exp (s (ix2 r j') - broadcastTo S512x2048 (shapeCast S512x1 (multiReduction .maximumf [1] S512 s 0xFF800000#32 h hφ hmax) h1) h2 (ix2 r j')) = _
    rw [colbcast_apply, rowmax_apply]
  rw [divf_apply, colbcast_apply, rowsum_apply, hE]
  simp only [hE]
  rfl

/-- THE BODY'S STORE, at row r and column d of the block: `attnRow` of query row r of the loaded query block, the
    loaded key block's rows, and column d of the loaded value block. -/
theorem payload_apply (x0 : Vec Ideal S1x512x64 .f32) (x1 x2 : Vec Ideal S1x2048x64 .f32) (u : Fin 1) (r : Fin 512) (d : Fin 64) :
    k0_pay1 x0 x1 x2 (ix3 u r d)
      = attnRow (fun e : Fin 64 => x0 (ix3 (0 : Fin 1) r e)) (fun (j : Fin 2048) (e : Fin 64) => x1 (ix3 (0 : Fin 1) j e))
          (fun j : Fin 2048 => x2 (ix3 (0 : Fin 1) j d)) := by
  unfold k0_pay1
  dsimp only
  rw [shapeCast_ab_1ab_apply, pv_apply]
  unfold attnRow
  refine Finset.sum_congr rfl fun j _ => ?_
  rw [truncf_apply, truncf_apply, shapeCast_1ab_ab_apply]
  refine congrArg (· * x2 (ix3 (0 : Fin 1) j d)) ?_
  refine (softmax_apply _ _ _ _ _ _ _ _ r j).trans ?_
  exact congrArg (fun s : Fin 2048 → EReal => softmaxRow s j) (funext fun j' => scores_apply x0 x1 _ _ _ _ r j')

end Cert.KernelIdeal.BodyValue

end
-- ==== Proof.ArrayValue.lean ====
/-
  From the blocks to the array: after the region, the kernel's [64, 2048, 64] result array is `attn3` of the three
  [64, 2048, 64] arrays the region found.

  Grid point t = (g, c) of the 64 × 4 grid works on head g and on the c-th tile of 512 query rows: it fetches rows
  512·c … 512·c + 511 of queries of head g, ALL 2048 rows of that head's keys and values, and writes back rows
  512·c … 512·c + 511 of the result of head g. Row r, column d of what it writes is `attnRow` of query row 512·c + r,
  the head's keys and column d of the head's values — which is entry (g, 512·c + r, d) of `attn3`. The 256 tiles are
  disjoint and fill the array.
-/
import proofs.«119954_j38783554683221_1_alg».proof.Proof.Gen.KernelIdeal.Frame
import proofs.«119954_j38783554683221_1_alg».proof.Proof.BodyValue
import Idealize.ShloMosaic.Lib.Pipeline.Value

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.Attention Cert.KernelIdeal.BodyValue
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- One stored block against the arrays: if query row (y 1) of the loaded query block is row (i 0, i 1) of `Q`, the
    loaded key block is head (i 0) of `K`, and column (y 2) of the loaded value block is column (i 2) of head (i 0) of
    `Vv`, then the body's store at `y` is `attn3 Q K Vv` at `i`. -/
theorem store_eq (x0 : Vec Ideal S1x512x64 .f32) (x1 x2 : Vec Ideal S1x2048x64 .f32) (Q K Vv : S64x2048x64.Idx → EReal)
    (y : S1x512x64.Idx) (i : S64x2048x64.Idx)
    (hq : ∀ e : Fin 64, x0 (ix3 (0 : Fin 1) (y 1) e) = Q (ix3 (i 0) (i 1) e))
    (hk : ∀ (j : Fin 2048) (e : Fin 64), x1 (ix3 (0 : Fin 1) j e) = K (ix3 (i 0) j e))
    (hv : ∀ j : Fin 2048, x2 (ix3 (0 : Fin 1) j (y 2)) = Vv (ix3 (i 0) j (i 2))) :
    k0_pay1 x0 x1 x2 y = attn3 Q K Vv i := by
  obtain ⟨u, r, d, rfl⟩ : ∃ (u : Fin 1) (r : Fin 512) (d : Fin 64), y = ix3 u r d := ⟨y 0, y 1, y 2, eq_ix3 y⟩
  rw [payload_apply]
  unfold attn3
  exact congr (congr (congrArg attnRow (funext hq)) (funext fun j => funext fun e => hk j e)) (funext hv)

/-- The printed index maps, decided over the 256 grid points: the query window moves with the result window on the
    first two axes; the key and value windows follow it on the head axis and stay at block 0 on the others; and the
    result window's block indices stay in range. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 3 ∧ win0_3.index t (2 : Fin 3) = 0 :=
  (by decide +kernel : ∀ t : Fin grid0.N, _)

/-- Every (head, tile) pair is some grid point's result block. -/
theorem index_onto : ∀ (g : Fin 64) (c : Fin 4), ∃ t : Fin cfg0.N, win0_3.index t = ![g.val, c.val, 0] :=
  (by decide +kernel : ∀ (g : Fin 64) (c : Fin 4), ∃ t : Fin grid0.N, win0_3.index t = ![g.val, c.val, 0])

/-- WHAT GRID POINT t WRITES BACK is block t of `attn3` of the three arrays as the region finds them: the body's store
    read where the result block lies, each loaded block read where the result block's head and rows say. -/
theorem flushed_eq (c : Dev nD) (t : Fin cfg0.N) :
    (dats m 0 c).flushed 3 t
      = ((cfg0.win 3).blk t).view.read (Elt Ideal) (attn3 (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S1x512x64) zero_offsets, View.ld_unit_zero (S := S1x2048x64) zero_offsets]
  obtain ⟨e0, e1, e2, e3, e4, e5, e6, e7, e8, e9, e10, e11⟩ := index_facts t
  funext y
  show k0_pay1 (iblk m c 0 t) (iblk m c 1 t) (iblk m c 2 t) y
    = attn3 (V m c main_v0) (V m c main_v1) (V m c main_v2) (((cfg0.win 3).blk t).view.emb y)
  have hy0 : (y 0).val < 1 := (y 0).isLt
  refine store_eq (iblk m c 0 t) (iblk m c 1 t) (iblk m c 2 t) (V m c main_v0) (V m c main_v1) (V m c main_v2) y
    (((cfg0.win 3).blk t).view.emb y) ?_ ?_ ?_
  · intro e
    show V m c main_v0 (((cfg0.win 0).blk t).view.emb (ix3 (0 : Fin 1) (y 1) e))
      = V m c main_v0 (ix3 ((((cfg0.win 3).blk t).view.emb y) 0) ((((cfg0.win 3).blk t).view.emb y) 1) e)
    refine congrArg (V m c main_v0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 512 + 1 * (y 1).val = win0_3.index t (1 : Fin 3) * 512 + 1 * (y 1).val; omega
    | ⟨2, _⟩ => show win0_0.index t (2 : Fin 3) * 64 + 1 * e.val = e.val; omega
  · intro j e
    show V m c main_v1 (((cfg0.win 1).blk t).view.emb (ix3 (0 : Fin 1) j e))
      = V m c main_v1 (ix3 ((((cfg0.win 3).blk t).view.emb y) 0) j e)
    refine congrArg (V m c main_v1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * e.val = e.val; omega
  · intro j
    show V m c main_v2 (((cfg0.win 2).blk t).view.emb (ix3 (0 : Fin 1) j (y 2)))
      = V m c main_v2 (ix3 ((((cfg0.win 3).blk t).view.emb y) 0) j ((((cfg0.win 3).blk t).view.emb y) 2))
    refine congrArg (V m c main_v2) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 64 + 1 * (y 2).val = win0_3.index t (2 : Fin 3) * 64 + 1 * (y 2).val; omega

/-- An index of the result array is in point t's block iff each coordinate is in the block's range on its axis. -/
theorem mem_blk (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

/-- The 256 result blocks fill the array: entry (g, i, d) lies in the block of head g and tile i / 512. -/
theorem covered (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE RESULT ARRAY after the region: `attn3` of the three arrays the region found. -/
theorem final (c : Dev nD) :
    (dats m 0 c).arrAt 3 cfg0.N = attn3 (V m c main_v0) (V m c main_v1) (V m c main_v2) :=
  (dats m 0 c).arrAt_eq_of_cover 3 (attn3 (V m c main_v0) (V m c main_v1) (V m c main_v2)) (fun t _ => flushed_eq m c t) covered

end Cert.KernelIdeal.ArrayValue

end
-- ==== Proof.AttentionReshape.lean ====
/-
  Merging batch and head into one axis and splitting it again changes no entry of the attention output.

  A row-major reshape [4, 16, 2048, 64] → [64, 2048, 64] sends (b, h, i, e) to (16·b + h, i, e), and the reshape back
  inverts it. `attn3` treats its leading axis, and `attn4` its two leading axes, as a plain label carried along:
  every slice it takes of the queries, keys and values keeps that label fixed. So `attn3` of the merged arrays at
  (16·b + h, i, d) is `attn4` of the original arrays at (b, h, i, d).
-/
import proofs.«119954_j38783554683221_1_alg».proof.Proof.AttentionSpec
import Idealize.ShloMosaic.Lib.Pipeline.Value

noncomputable section

open scoped BigOperators

namespace Cert.Attention

open Idealize.ShloMosaic Idealize.ShloMosaic.ValueIdx

/-- The merged array read at (16·b + h, i, e) is the original at (b, h, i, e). -/
theorem merge_apply (x : (⟨4, ![4, 16, 2048, 64]⟩ : Shape).Idx → EReal)
    (hm : (⟨4, ![4, 16, 2048, 64]⟩ : Shape).ShapeCasts ⟨3, ![64, 2048, 64]⟩)
    (b : Fin 4) (h : Fin 16) (i : Fin 2048) (e : Fin 64) (g : Fin 64) (hg : g.val = 16 * b.val + h.val) :
    shapeCast ⟨3, ![64, 2048, 64]⟩ x hm (ix3 g i e) = x (ix4 b h i e) :=
  shapeCast_apply x hm _ _ (by
    rw [Shape.rowMajor_val_four, Shape.rowMajor_val_three]
    show ((b.val * 16 + h.val) * 2048 + i.val) * 64 + e.val = (g.val * 2048 + i.val) * 64 + e.val
    rw [hg]; ring)

/-- THE BRIDGE: merge the two leading axes of the three arguments, take `attn3`, split the leading axis of the result
    again: that is `attn4` of the arguments. -/
theorem split_attn3_merge (q k v : (⟨4, ![4, 16, 2048, 64]⟩ : Shape).Idx → EReal)
    (hm : (⟨4, ![4, 16, 2048, 64]⟩ : Shape).ShapeCasts ⟨3, ![64, 2048, 64]⟩)
    (hs : (⟨3, ![64, 2048, 64]⟩ : Shape).ShapeCasts ⟨4, ![4, 16, 2048, 64]⟩) :
    shapeCast ⟨4, ![4, 16, 2048, 64]⟩
        (attn3 (shapeCast ⟨3, ![64, 2048, 64]⟩ q hm) (shapeCast ⟨3, ![64, 2048, 64]⟩ k hm) (shapeCast ⟨3, ![64, 2048, 64]⟩ v hm)) hs
      = attn4 q k v := by
  funext y
  obtain ⟨b, h, i, d, rfl⟩ : ∃ (b : Fin 4) (h : Fin 16) (i : Fin 2048) (d : Fin 64), y = ix4 b h i d :=
    ⟨y 0, y 1, y 2, y 3, eq_ix4 y⟩
  have hb : b.val < 4 := b.isLt
  have hh : h.val < 16 := h.isLt
  obtain ⟨g, hg⟩ : ∃ g : Fin 64, g.val = 16 * b.val + h.val := ⟨⟨16 * b.val + h.val, by omega⟩, rfl⟩
  refine (shapeCast_apply _ hs (ix4 b h i d) (ix3 g i d) (by
    rw [Shape.rowMajor_val_four, Shape.rowMajor_val_three]
    show (g.val * 2048 + i.val) * 64 + d.val = ((b.val * 16 + h.val) * 2048 + i.val) * 64 + d.val
    rw [hg]; ring)).trans ?_
  show attnRow (fun e : Fin 64 => shapeCast ⟨3, ![64, 2048, 64]⟩ q hm (ix3 g i e))
      (fun (j : Fin 2048) (e : Fin 64) => shapeCast ⟨3, ![64, 2048, 64]⟩ k hm (ix3 g j e))
      (fun j : Fin 2048 => shapeCast ⟨3, ![64, 2048, 64]⟩ v hm (ix3 g j d))
    = attnRow (fun e : Fin 64 => q (ix4 b h i e)) (fun (j : Fin 2048) (e : Fin 64) => k (ix4 b h j e))
      (fun j : Fin 2048 => v (ix4 b h j d))
  exact congr (congr (congrArg attnRow (funext fun e => merge_apply q hm b h i e g hg))
    (funext fun j => funext fun e => merge_apply k hm b h j e g hg)) (funext fun j => merge_apply v hm b h j d g hg)

end Cert.Attention

end
-- ==== Proof.RunValue.lean ====
/-
  The idealized kernel's run, read: every weakly fair execution ends with the result array at `attn4` of the three
  argument arrays, and the arguments unchanged.

  @main reshapes each argument [4, 16, 2048, 64] → [64, 2048, 64], runs the region (whose result array is `attn3` of
  what it finds), and reshapes the result back to [4, 16, 2048, 64]. Merging and splitting the leading axes changes no
  entry of the attention output, so the result is `attn4` of the arguments.
-/
import proofs.«119954_j38783554683221_1_alg».proof.Proof.Gen.KernelIdeal.Frame
import proofs.«119954_j38783554683221_1_alg».proof.Proof.ArrayValue
import proofs.«119954_j38783554683221_1_alg».proof.Proof.AttentionReshape
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.StableHlo Cert.Attention Cert.KernelIdeal.ArrayValue

variable (m : (ℓ : Loc nD τ sig) → Buf (Elt Ideal) ℓ) (ρ : Dev nD → PrngReg)

/-- The queries as the region finds them: the first argument with batch and head merged. -/
theorem found_q (c : Dev nD) :
    (V m c main_v0 : S64x2048x64.Idx → EReal)
      = shapeCast S64x2048x64 (m ((c : Thread nD τ).loc main_arg0)) shapeCasts_S4x16x2048x64_S64x2048x64 := by
  show StableHlo.after hostOps0 (fun b => m (c, b)) (Proc.devRef .tc main_v0) = _
  after_results
  rfl

/-- The keys as the region finds them: the second argument with batch and head merged. -/
theorem found_k (c : Dev nD) :
    (V m c main_v1 : S64x2048x64.Idx → EReal)
      = shapeCast S64x2048x64 (m ((c : Thread nD τ).loc main_arg1)) shapeCasts_S4x16x2048x64_S64x2048x64 := by
  show StableHlo.after hostOps0 (fun b => m (c, b)) (Proc.devRef .tc main_v1) = _
  after_results
  rfl

/-- The values as the region finds them: the third argument with batch and head merged. -/
theorem found_v (c : Dev nD) :
    (V m c main_v2 : S64x2048x64.Idx → EReal)
      = shapeCast S64x2048x64 (m ((c : Thread nD τ).loc main_arg2)) shapeCasts_S4x16x2048x64_S64x2048x64 := by
  show StableHlo.after hostOps0 (fun b => m (c, b)) (Proc.devRef .tc main_v2) = _
  after_results
  rfl

/-- What the line after the region leaves in the program's result: the region's result array with its leading axis
    split again — `attn4` of the arguments. -/
theorem result_eq (c : Dev nD) :
    Pipeline.afterTail₀ cfgs (dats m) 0 (V0 m) [hostOps1] c main_v4
      = attn4 (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  show shapeCast S4x16x2048x64 (Pipeline.withArrays spec0 c (V0 m c) (fun w => (dats m 0 c).arrAt w cfg0.N)
      (Proc.devRef .tc (Pipeline.arrRef spec0 3))) shapeCasts_S64x2048x64_S4x16x2048x64 = _
  rw [Pipeline.withArrays_arr spec0 launch0.win.arr_inj c _ _ 3, final m c, found_q, found_k, found_v]
  exact split_attn3_merge _ _ _ _ _

/-- THE RUN: every weakly fair execution of the idealized kernel's @main terminates, with the result array at
    `attn4` of the arguments and the arguments as they were. -/
theorem run : θ_run defs (onTc (τ := τ) (main (F := Ideal))) ⟨m, fun _ => 0, ρ⟩ fun r => ∀ c : Dev nD,
      r.2.mem ((c.tc : Thread nD τ).loc main_v4)
        = attn4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.ReferenceValue.lean ====
/-
  The reference program's result is `attn4` of its three arguments.

  The reference computes, over arrays [4, 16, 2048, 64]: the scores by one contraction over the last axis; each
  row's maximum by a fold of `max` from −∞ (and once more `max` against a splat of −∞, which changes nothing);
  `exp` of the scores less the maximum; each row's sum from 0; the quotient; and a second contraction of the
  weights with the values over the key axis. Read one operation at a time at an index given by coordinates, this
  is the expression `attnRow` of the row's slices of the arguments.
-/
import proofs.«119954_j38783554683221_1_alg».proof.Proof.Gen.ReferenceIdeal.Read
import proofs.«119954_j38783554683221_1_alg».proof.Proof.AttentionSpec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attention

variable (x0 x1 x2 : S4x16x2048x64.Idx → EReal)

/-- The scores: entry (b, h, i, j) is the contraction of query row i with key row j. -/
theorem scores_apply (b : Fin 4) (h : Fin 16) (i j : Fin 2048) :
    val_main_v0 (F := Ideal) x0 x1 (ix4 b h i j) = ∑ e : Fin 64, x0 (ix4 b h i e) * x1 (ix4 b h j e) := by
  rw [val_main_v0_apply]
  refine Finset.sum_congr rfl fun e _ => ?_
  have el : lidx_main_v0 (ix4 b h i j) e = ix4 b h i e :=
    funext fun a => Fin.ext (by match a with | ⟨0, _⟩ => rfl | ⟨1, _⟩ => rfl | ⟨2, _⟩ => rfl | ⟨3, _⟩ => rfl)
  have er : ridx_main_v0 (ix4 b h i j) e = ix4 b h j e :=
    funext fun a => Fin.ext (by match a with | ⟨0, _⟩ => rfl | ⟨1, _⟩ => rfl | ⟨2, _⟩ => rfl | ⟨3, _⟩ => rfl)
  rw [el, er]

/-- The host's reduction by `max` over the key axis is the row's maximum. -/
theorem rowmax_apply (b : Fin 4) (h : Fin 16) (i : Fin 2048) :
    val_main_v1 (F := Ideal) x0 x1 (ix3 b h i) = rowMax (fun j : Fin 2048 => val_main_v0 (F := Ideal) x0 x1 (ix4 b h i j)) := by
  unfold val_main_v1
  have hr : S4x16x2048x2048.Reduces [3] S4x16x2048 := by decide
  rw [Host.reduce_eq_fold_single FloatOps.maximumf _ _ reducesTo_S4x16x2048x2048_S4x16x2048_d3 hr h_S_ (ix3 b h i)]
  have hl : (val_main_v0 (F := Ideal) x0 x1 ∘ hr.lift (ix3 b h i))
      = fun j : Fin 2048 => val_main_v0 (F := Ideal) x0 x1 (ix4 b h i j) :=
    funext fun k => congrArg (val_main_v0 (F := Ideal) x0 x1) (funext fun a => Fin.ext (by
      match a with | ⟨0, _⟩ => rfl | ⟨1, _⟩ => rfl | ⟨2, _⟩ => rfl | ⟨3, _⟩ => rfl))
  rw [hl]
  rfl

/-- The maximum the reference subtracts: the row's maximum once more against −∞, which is the row's maximum. -/
theorem submax_apply (b : Fin 4) (h : Fin 16) (i j : Fin 2048) :
    val_main_v5 (F := Ideal) x0 x1 (ix4 b h i j) = rowMax (fun j' : Fin 2048 => val_main_v0 (F := Ideal) x0 x1 (ix4 b h i j')) := by
  rw [val_main_v5_apply, val_main_v4_apply]
  have e : idx_main_v4 (idx_main_v5 (ix4 b h i j)) = ix3 b h i :=
    funext fun a => Fin.ext (by match a with | ⟨0, _⟩ => rfl | ⟨1, _⟩ => rfl | ⟨2, _⟩ => rfl)
  rw [e, val_main_v3_apply, val_main_v2_apply, val_main_cst_0_apply, rowmax_apply]
  exact max_negInf _

/-- The exponentials: `exp` of the score less the row's maximum. -/
theorem expo_apply (b : Fin 4) (h : Fin 16) (i j : Fin 2048) :
    val_main_v7 (F := Ideal) x0 x1 (ix4 b h i j)
      = Ideal.exp (val_main_v0 (F := Ideal) x0 x1 (ix4 b h i j) - rowMax (fun j' : Fin 2048 => val_main_v0 (F := Ideal) x0 x1 (ix4 b h i j'))) := by
  rw [val_main_v7_apply, val_main_v6_apply, submax_apply]
  rfl

/-- The denominators: the row's sum of exponentials (the sum starts from the word for 0). -/
theorem denom_apply (b : Fin 4) (h : Fin 16) (i j : Fin 2048) :
    val_main_v10 (F := Ideal) x0 x1 (ix4 b h i j) = ∑ j' : Fin 2048, val_main_v7 (F := Ideal) x0 x1 (ix4 b h i j') := by
  rw [val_main_v10_apply, val_main_v9_apply]
  have e : idx_main_v9 (idx_main_v10 (ix4 b h i j)) = ix3 b h i :=
    funext fun a => Fin.ext (by match a with | ⟨0, _⟩ => rfl | ⟨1, _⟩ => rfl | ⟨2, _⟩ => rfl)
  rw [e, val_main_v8_apply, val_main_cst_1_apply]
  show Ideal.ofBits .f32 0x00000000#32 + _ = _
  rw [Ideal.ofBits_zero_f32, zero_add]
  refine Finset.sum_congr rfl fun k _ => ?_
  exact congrArg (val_main_v7 (F := Ideal) x0 x1) (funext fun a => Fin.ext (by
    match a with | ⟨0, _⟩ => rfl | ⟨1, _⟩ => rfl | ⟨2, _⟩ => rfl | ⟨3, _⟩ => rfl))

/-- The weights are the softmax of the row of scores. -/
theorem weights_apply (b : Fin 4) (h : Fin 16) (i j : Fin 2048) :
    val_main_v11 (F := Ideal) x0 x1 (ix4 b h i j)
      = softmaxRow (fun j' : Fin 2048 => ∑ e : Fin 64, x0 (ix4 b h i e) * x1 (ix4 b h j' e)) j := by
  rw [val_main_v11_apply, denom_apply]
  simp only [expo_apply, scores_apply]
  rfl

/-- THE REFERENCE'S RESULT, index by index: `attn4` of the arguments. -/
theorem result_eq : val_main_v12 (F := Ideal) x0 x1 x2 = attn4 x0 x1 x2 := by
  funext y
  obtain ⟨b, h, i, d, rfl⟩ : ∃ (b : Fin 4) (h : Fin 16) (i : Fin 2048) (d : Fin 64), y = ix4 b h i d :=
    ⟨y 0, y 1, y 2, y 3, eq_ix4 y⟩
  rw [val_main_v12_apply]
  show _ = attnRow (fun e : Fin 64 => x0 (ix4 b h i e)) (fun (j : Fin 2048) (e : Fin 64) => x1 (ix4 b h j e))
    (fun j : Fin 2048 => x2 (ix4 b h j d))
  unfold attnRow
  refine Finset.sum_congr rfl fun k _ => ?_
  have el : lidx_main_v12 (ix4 b h i d) k = ix4 b h i k :=
    funext fun a => Fin.ext (by match a with | ⟨0, _⟩ => rfl | ⟨1, _⟩ => rfl | ⟨2, _⟩ => rfl | ⟨3, _⟩ => rfl)
  have er : ridx_main_v12 (ix4 b h i d) k = ix4 b h k d :=
    funext fun a => Fin.ext (by match a with | ⟨0, _⟩ => rfl | ⟨1, _⟩ => rfl | ⟨2, _⟩ => rfl | ⟨3, _⟩ => rfl)
  rw [el, er, weights_apply]

end Cert.ReferenceIdeal.RefValue

end
-- ==== Proof.lean ====
/-
  Unscaled, unmasked attention as a tiled kernel against its plain reference: `Cert.Claim`.

  Both programs take queries, keys and values [4, 16, 2048, 64] and return, at (b, h, i, d),
      ∑ j, softmax_j (∑ e, q[b,h,i,e] · k[b,h,j,e]) · v[b,h,j,d],
  the softmax written with the row's maximum subtracted before the exponential (Proof/AttentionSpec.lean: `attnRow`,
  `attn4`). On the extended reals the two are the same expression, operation for operation: the reference takes one more
  `max` against −∞, which is the identity; each program's sums start from the word for 0; the kernel's changes of float
  format are the identity. What differs is layout — the kernel merges batch and head into one axis of 64, works on tiles
  of 512 query rows with a head's whole keys and values beside them, and splits the axis again at the end — and
  layout moves no entry (Proof/AttentionReshape.lean). No law that needs finite operands is used, so the precondition is
  never opened.

  The pieces: the reference's result is `attn4` (Proof/ReferenceValue.lean); what one grid point stores is `attnRow`
  of its loaded blocks (Proof/BodyValue.lean); the 256 stored tiles make up `attn3` of the merged arrays
  (Proof/ArrayValue.lean); around the region, the reshapes turn that into `attn4` of the arguments
  (Proof/RunValue.lean). The three frames are the programs' runs with the result forgotten; the idealization rewrote
  nothing, so `preserves` has nothing to state.
-/
import proofs.«119954_j38783554683221_1_alg».proof.Defs
import proofs.«119954_j38783554683221_1_alg».proof.Proof.Gen.Kernel
import proofs.«119954_j38783554683221_1_alg».proof.Proof.Gen.Kernel.Skeleton
import proofs.«119954_j38783554683221_1_alg».proof.Proof.Gen.Kernel.Launch
import proofs.«119954_j38783554683221_1_alg».proof.Proof.Gen.Kernel.Points
import proofs.«119954_j38783554683221_1_alg».proof.Proof.Gen.Kernel.Frame
import proofs.«119954_j38783554683221_1_alg».proof.Proof.Gen.KernelIdeal
import proofs.«119954_j38783554683221_1_alg».proof.Proof.Gen.KernelIdeal.Skeleton
import proofs.«119954_j38783554683221_1_alg».proof.Proof.Gen.KernelIdeal.Launch
import proofs.«119954_j38783554683221_1_alg».proof.Proof.Gen.KernelIdeal.Points
import proofs.«119954_j38783554683221_1_alg».proof.Proof.Gen.KernelIdeal.Frame
import proofs.«119954_j38783554683221_1_alg».proof.Proof.Gen.ReferenceIdeal
import proofs.«119954_j38783554683221_1_alg».proof.Proof.Gen.ReferenceIdeal.Run
import proofs.«119954_j38783554683221_1_alg».proof.Proof.Gen.ReferenceIdeal.Read
import proofs.«119954_j38783554683221_1_alg».proof.Proof.Gen.Pre_finite_inputs
import Idealize.ShloMosaic.Adequacy
import Idealize.ShloMosaic.Init

import proofs.«119954_j38783554683221_1_alg».proof.Proof.RunValue
import proofs.«119954_j38783554683221_1_alg».proof.Proof.ReferenceValue

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the idealized kernel ends with its result at `attn4` of the arguments
    and the reference with its result at `attn4` of the same arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
